-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x1x2048 : Shape := ⟨4, ![4, 1, 1, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S4x1x1x2048 : S_.BroadcastsInDim S4x1x1x2048 (![] : Fin 0 → Fin S4x1x1x2048.rank)
  reducesTo_S4x1x1x2048_S_d0_1_2_3 : S4x1x1x2048.ReducesTo [0, 1, 2, 3] S_

variable [Facts]

def fn_part1 {F : FTy → Type} [FloatOps F] (main_v13 : IVec S_ 1) (main_v16 : IVec S4x1x1x2048 1) : IVec S_ 1 :=
  let main_c_5 : IVec S_ 1 := constantI S_ 1 1#1
  let main_v17 : IVec S_ 1 := (fun x v => Host.reduce IntOp.andi x v reducesTo_S4x1x1x2048_S_d0_1_2_3 h_S_) main_v16 main_c_5
  let main_v18 : IVec S_ 1 := andi main_v13 main_v17
  main_v18

def fn {F : FTy → Type} [FloatOps F] (main_arg0 : FVec F S4x16x2048x64 .f32) (main_arg1 : FVec F S4x16x2048x64 .f32) (main_arg2 : FVec F S4x16x2048x64 .f32) (main_arg3 : FVec F S4x1x1x2048 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S4x1x1x2048 .f32 := Host.absf main_arg3
  let main_cst_4 : FVec F S_ .f32 := constant S_ .f32 0x7F800000#32
  let main_v15 : FVec F S4x1x1x2048 .f32 := broadcastInDim S4x1x1x2048 ![] bcast_S_S4x1x1x2048 main_cst_4
  let main_v16 : IVec S4x1x1x2048 1 := cmpf .olt main_v14 main_v15
  fn_part1 (F := F) main_v13 main_v16
-- ==== Kernel.lean ====
abbrev S4x16x2048x64 : Shape := ⟨4, ![4, 16, 2048, 64]⟩
abbrev S4x1x1x2048 : Shape := ⟨4, ![4, 1, 1, 2048]⟩
abbrev S64x2048x64 : Shape := ⟨3, ![64, 2048, 64]⟩
abbrev S4x1x2048 : Shape := ⟨3, ![4, 1, 2048]⟩
abbrev S1x512x64 : Shape := ⟨3, ![1, 512, 64]⟩
abbrev S1x2048x64 : Shape := ⟨3, ![1, 2048, 64]⟩
abbrev S1x1x2048 : Shape := ⟨3, ![1, 1, 2048]⟩
abbrev S512x64 : Shape := ⟨2, ![512, 64]⟩
abbrev S2048x64 : Shape := ⟨2, ![2048, 64]⟩
abbrev S512x2048 : Shape := ⟨2, ![512, 2048]⟩
abbrev S2048 : Shape := ⟨1, ![2048]⟩
abbrev S1x2048 : Shape := ⟨2, ![1, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x1x2048, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x1x2048, .f32⟩
  | .hbm, ⟨8, _⟩ => ⟨S64x2048x64, .f32⟩
  | .hbm, ⟨9, _⟩ => ⟨S4x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1x2048, .f32⟩
  | .local _ .vmem, ⟨7, _⟩ => ⟨S1x1x2048, .f32⟩
  | .local _ .vmem, ⟨8, _⟩ => ⟨S1x512x64, .f32⟩
  | .local _ .vmem, ⟨9, _⟩ => ⟨S1x512x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x2048x64_S64x2048x64 : S4x16x2048x64.ShapeCasts S64x2048x64
  shapeCasts_S4x1x1x2048_S4x1x2048 : S4x1x1x2048.ShapeCasts S4x1x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S64x2048x64_S4x16x2048x64 : S64x2048x64.ShapeCasts S4x16x2048x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x2048.size a
  hwx0_3 : ∀ i : grid0.Coords, EltTy.bits .f32 = 32 ∨ (Rect.block (s := S4x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S64x2048x64.size a
  hwx0_4 : ∀ i : grid0.Coords, EltTy.bits .f32 = 32 ∨ (Rect.block (s := S64x2048x64) S1x512x64.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x1x2048 : Shape := ⟨4, ![4, 1, 1, 2048]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x1x2048, .f32⟩
  | .hbm, ⟨4, _⟩ => ⟨S_, .f32⟩
  | .hbm, ⟨5, _⟩ => ⟨S4x16x2048x64, .f32⟩
  | .hbm, ⟨6, _⟩ => ⟨S4x16x2048x64, .f32⟩
  | .hbm, ⟨7, _⟩ => ⟨S4x16x2048x2048, .f32⟩
  | .hbm, ⟨8, _⟩ => ⟨S4x16x2048x2048, .f32⟩
  | .hbm, ⟨9, _⟩ => ⟨S4x16x2048x2048, .f32⟩
  | .hbm, ⟨10, _⟩ => ⟨S_, .f32⟩
  | .hbm, ⟨11, _⟩ => ⟨S4x16x2048, .f32⟩
  | .hbm, ⟨12, _⟩ => ⟨S_, .f32⟩
  | .hbm, ⟨13, _⟩ => ⟨S4x16x2048, .f32⟩
  | .hbm, ⟨14, _⟩ => ⟨S4x16x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4x16x2048x64 : S_.BroadcastsInDim S4x16x2048x64 (![] : Fin 0 → Fin S4x16x2048x64.rank)
  bcast_S4x1x1x2048_S4x16x2048x2048_0_1_2_3 : S4x1x1x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttnSpec.lean ====
/-
  Softmax attention over the extended reals, stated one output entry at a time.

  For one query row `q` (a vector over the feature axis), key rows `k s`, an additive mask `msk s` per key and one
  column `v s` of the values, the output entry is

      ∑ s, w s * v s,     w s = exp (sc s - M) / ∑ s', exp (sc s' - M),
      sc s = (∑ j, (q j * c) * k s j) + msk s,     M = the fold of `max` over the scores from `lo`,

  with `exp`, the quotient and the arithmetic those of the extended reals. Nothing here depends on the entries being
  finite: both programs this is compared with apply these very operations, in this order, to the same entries, and
  only regroup the finite sums and the fold of `max`, which are commutative and associative on the extended reals.

  `attn` is that entry over the arrays of the problem: queries, keys and values of shape [4, 16, 2048, 64], the mask of
  shape [4, 1, 1, 2048] shared by the 16 heads of a batch and by every query row.
-/
import Idealize.ShloMosaic.PureOps.Ideal
import Idealize.ShloMosaic.Lib.ValueIdx

noncomputable section

namespace Cert.Attn

open Idealize.ShloMosaic Idealize.ShloMosaic.ValueIdx

/-- The score of key `s` against a query row: the scaled query's inner product with the key's row, plus the key's mask. -/
def score {n d : ℕ} (c : EReal) (q : Fin d → EReal) (k : Fin n → Fin d → EReal) (msk : Fin n → EReal) (s : Fin n) : EReal :=
  (∑ j : Fin d, q j * c * k s j) + msk s

/-- The largest of a row of scores: the fold of `max` over the keys, from `lo`. -/
def rowMax {n : ℕ} (lo : EReal) (sc : Fin n → EReal) : EReal :=
  (Finset.univ : Finset (Fin n)).fold max lo sc

/-- The softmax weight of key `s`: the exponential of its score less the row's largest, over the sum of those
    exponentials along the row. -/
def weight {n : ℕ} (lo : EReal) (sc : Fin n → EReal) (s : Fin n) : EReal :=
  Ideal.div (Ideal.exp (sc s - rowMax lo sc)) (∑ s' : Fin n, Ideal.exp (sc s' - rowMax lo sc))

/-- One output entry: the values' column averaged with the softmax weights of the query row's scores. -/
def entry {n d : ℕ} (c lo : EReal) (q : Fin d → EReal) (k : Fin n → Fin d → EReal) (msk v : Fin n → EReal) : EReal :=
  ∑ s : Fin n, weight lo (score c q k msk) s * v s

/-- The arrays' shapes. -/
abbrev QKV : Shape := ⟨4, ![4, 16, 2048, 64]⟩
abbrev Msk : Shape := ⟨4, ![4, 1, 1, 2048]⟩

/-- The output at batch `b`, head `h`, query row `t`, feature `e`: the scale is the word of 1/8, the fold of `max`
    starts from the word of -∞ (both kept as words: the two programs hold the same ones). -/
def outAt (Q K V : QKV.Idx → EReal) (M : Msk.Idx → EReal) (b : Fin 4) (h : Fin 16) (t : Fin 2048) (e : Fin 64) : EReal :=
  entry (Ideal.ofBits .f32 0x3E000000#32) (Ideal.ofBits .f32 0xFF800000#32)
    (fun j : Fin 64 => Q (ix4 b h t j)) (fun (s : Fin 2048) (j : Fin 64) => K (ix4 b h s j))
    (fun s : Fin 2048 => M (ix4 b (0 : Fin 1) (0 : Fin 1) s)) (fun s : Fin 2048 => V (ix4 b h s e))

/-- The whole output array. -/
def attn (Q K V : QKV.Idx → EReal) (M : Msk.Idx → EReal) : QKV.Idx → EReal :=
  fun i => outAt Q K V M (i 0) (i 1) (i 2) (i 3)

theorem attn_apply (Q K V : QKV.Idx → EReal) (M : Msk.Idx → EReal) (b : Fin 4) (h : Fin 16) (t : Fin 2048) (e : Fin 64) :
    attn Q K V M (ix4 b h t e) = outAt Q K V M b h t e := rfl

end Cert.Attn

end
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.KernelRow.lean ====
/-
  One entry of what the kernel's body stores, as the attention entry of the body's four loaded blocks.

  The body loads a block of 512 query rows `x0 : [1, 512, 64]`, all 2048 key rows and value rows of the same head
  `x1, x2 : [1, 2048, 64]`, and the batch's mask row `x3 : [1, 1, 2048]`, and stores `[1, 512, 64]`. Read at row `t`,
  feature `e`, the stored block is
      ∑ s, w s * x2 (0, s, e),   w = the softmax weights of the scores  sc s = (∑ j, (x0 (0, t, j) * 1/8) * x1 (0, s, j)) + x3 (0, 0, s),
  that is `Attn.entry` of row `t` of the queries, the keys, the mask row and column `e` of the values. At the ideal
  values the roundings to bf16 before the two products are the identity, a product accumulated into zeros is the plain
  sum over the contracted coordinate, the row maximum is the fold of `max` along the row from the word of -∞ and the
  row sum the sum along the row.

  The body's value is cut into the stages it computes (scaled queries, keys, scores, row maxima, exponentials, row
  sums, weights); each stage is read at an index from the stage before it.
-/
import proofs.«163491_j20564303413307_2_alg».proof.Proof.Gen.KernelIdeal.Skeleton
import proofs.«163491_j20564303413307_2_alg».proof.Proof.AttnSpec
import proofs.«163491_j20564303413307_2_alg».proof.Proof.LibColumnReads
import proofs.«163491_j20564303413307_2_alg».proof.Proof.LibRowReads
import Idealize.ShloMosaic.Lib.ValueIdx
import Idealize.ShloMosaic.Lib.ValueLayout
import Idealize.ShloMosaic.Lib.Pipeline.Value
import Idealize.ShloMosaic.PureOps.Ideal.Laws

noncomputable section

namespace Cert.KernelRow

open Cert.KernelIdeal Cert.KernelIdeal.Gen Idealize.ShloMosaic Idealize.ShloMosaic.ValueIdx

/-- The two products' dimension records: queries against keys (both contracted along the feature axis), weights
    against values. -/
abbrev DQK := dot_S512x64_S2048x64_S512x2048_1_1_0_0_n_n
abbrev DPV := dot_S512x2048_S2048x64_S512x64_1_0_0_1_n_n

/-! ## The two products read at an index -/

/-- The operand indices of the two products at an output index and a contraction index, coordinate by coordinate. -/
theorem qk_l0 (i : S512x2048.Idx) (q : DQK.contr.Idx) : (DQK.lhsIdx i q 0).val = (i 0).val := by
  unfold DotDims.lhsIdx
  rw [dif_neg (show ¬(0 : Fin S512x64.rank) ∈ DQK.lhsBatch by decide), dif_pos (show (0 : Fin S512x64.rank) ∈ DQK.lhsNonContracting by decide)]
  rfl
theorem qk_l1 (i : S512x2048.Idx) (q : DQK.contr.Idx) : (DQK.lhsIdx i q 1).val = (q ⟨0, by decide⟩).val :=
  DQK.lhsIdx_val_of_single rfl i q
theorem qk_r0 (i : S512x2048.Idx) (q : DQK.contr.Idx) : (DQK.rhsIdx i q 0).val = (i 1).val := by
  unfold DotDims.rhsIdx
  rw [dif_neg (show ¬(0 : Fin S2048x64.rank) ∈ DQK.rhsBatch by decide), dif_pos (show (0 : Fin S2048x64.rank) ∈ DQK.rhsNonContracting by decide)]
  rfl
theorem qk_r1 (i : S512x2048.Idx) (q : DQK.contr.Idx) : (DQK.rhsIdx i q 1).val = (q ⟨0, by decide⟩).val :=
  DQK.rhsIdx_val_of_single rfl i q
theorem pv_l0 (i : S512x64.Idx) (q : DPV.contr.Idx) : (DPV.lhsIdx i q 0).val = (i 0).val := by
  unfold DotDims.lhsIdx
  rw [dif_neg (show ¬(0 : Fin S512x2048.rank) ∈ DPV.lhsBatch by decide), dif_pos (show (0 : Fin S512x2048.rank) ∈ DPV.lhsNonContracting by decide)]
  rfl
theorem pv_l1 (i : S512x64.Idx) (q : DPV.contr.Idx) : (DPV.lhsIdx i q 1).val = (q ⟨0, by decide⟩).val :=
  DPV.lhsIdx_val_of_single rfl i q
theorem pv_r0 (i : S512x64.Idx) (q : DPV.contr.Idx) : (DPV.rhsIdx i q 0).val = (q ⟨0, by decide⟩).val :=
  DPV.rhsIdx_val_of_single rfl i q
theorem pv_r1 (i : S512x64.Idx) (q : DPV.contr.Idx) : (DPV.rhsIdx i q 1).val = (i 1).val := by
  unfold DotDims.rhsIdx
  rw [dif_neg (show ¬(1 : Fin S2048x64.rank) ∈ DPV.rhsBatch by decide), dif_pos (show (1 : Fin S2048x64.rank) ∈ DPV.rhsNonContracting by decide)]
  rfl

/-- Queries against keys into zeros: entry `(t, s)` is the sum over the feature `j` of the left operand at `(t, j)` times
    the right at `(s, j)`. -/
theorem qk_apply (L : FVec Ideal S512x64 .bf16) (R : FVec Ideal S2048x64 .bf16) (t : Fin 512) (s : Fin 2048) :
    matmul DQK none L R (constant S512x2048 .f32 0x00000000#32) (ix2 t s) = ∑ j : Fin 64, L (ix2 t j) * R (ix2 s j) := by
  simp only [matmul]
  rw [Ideal.matmul_constant_zero_apply, ← Equiv.sum_comp (contrEquiv1 DQK 64 rfl rfl).symm]
  refine Finset.sum_congr rfl fun j _ => ?_
  have hj := contrEquiv1_symm_val DQK 64 rfl rfl j
  have el : DQK.lhsIdx (ix2 t s) ((contrEquiv1 DQK 64 rfl rfl).symm j) = ix2 t j := funext fun a => Fin.ext (by
    match a with
    | ⟨0, _⟩ => exact qk_l0 _ _
    | ⟨1, _⟩ => exact (qk_l1 _ _).trans hj)
  have er : DQK.rhsIdx (ix2 t s) ((contrEquiv1 DQK 64 rfl rfl).symm j) = ix2 s j := funext fun a => Fin.ext (by
    match a with
    | ⟨0, _⟩ => exact qk_r0 _ _
    | ⟨1, _⟩ => exact (qk_r1 _ _).trans hj)
  rw [el, er]

/-- Weights against values into zeros: entry `(t, e)` is the sum over the key `s` of the left operand at `(t, s)` times
    the right at `(s, e)`. -/
theorem pv_apply (L : FVec Ideal S512x2048 .bf16) (R : FVec Ideal S2048x64 .bf16) (t : Fin 512) (e : Fin 64) :
    matmul DPV none L R (constant S512x64 .f32 0x00000000#32) (ix2 t e) = ∑ s : Fin 2048, L (ix2 t s) * R (ix2 s e) := by
  simp only [matmul]
  rw [Ideal.matmul_constant_zero_apply, ← Equiv.sum_comp (contrEquiv1 DPV 2048 rfl rfl).symm]
  refine Finset.sum_congr rfl fun s _ => ?_
  have hs := contrEquiv1_symm_val DPV 2048 rfl rfl s
  have el : DPV.lhsIdx (ix2 t e) ((contrEquiv1 DPV 2048 rfl rfl).symm s) = ix2 t s := funext fun a => Fin.ext (by
    match a with
    | ⟨0, _⟩ => exact pv_l0 _ _
    | ⟨1, _⟩ => exact (pv_l1 _ _).trans hs)
  have er : DPV.rhsIdx (ix2 t e) ((contrEquiv1 DPV 2048 rfl rfl).symm s) = ix2 s e := funext fun a => Fin.ext (by
    match a with
    | ⟨0, _⟩ => exact (pv_r0 _ _).trans hs
    | ⟨1, _⟩ => exact pv_r1 _ _)
  rw [el, er]

/-! ## The body's stages -/

/-- The query block scaled by 1/8 (then rounded to bf16: the identity here). -/
def qs (x0 : Vec Ideal S1x512x64 .f32) : FVec Ideal S512x64 .bf16 :=
  truncf .bf16 (mulf (shapeCast S512x64 x0 shapeCasts_S1x512x64_S512x64) (broadcast S512x64 (Scalar.ofBits .f32 0x3E000000#32))) bitsLt_bf16_f32

/-- A key or value block as a matrix (rounded to bf16: the identity here). -/
def kv (x : Vec Ideal S1x2048x64 .f32) : FVec Ideal S2048x64 .bf16 :=
  truncf .bf16 (shapeCast S2048x64 x shapeCasts_S1x2048x64_S2048x64) bitsLt_bf16_f32

/-- The scores: scaled queries against keys, plus the mask row under every query row. -/
def scores (x0 : Vec Ideal S1x512x64 .f32) (x1 : Vec Ideal S1x2048x64 .f32) (x3 : Vec Ideal S1x1x2048 .f32) : FVec Ideal S512x2048 .f32 :=
  addf (matmul DQK none (qs x0) (kv x1) (constant S512x2048 .f32 0x00000000#32))
    (broadcastTo S512x2048 (shapeCast S1x2048 (shapeCast S2048 x3 shapeCasts_S1x1x2048_S2048) shapeCasts_S2048_S1x2048) broadcasts_S1x2048_S512x2048)

/-- Each query row's largest score. -/
def rmax (x0 : Vec Ideal S1x512x64 .f32) (x1 : Vec Ideal S1x2048x64 .f32) (x3 : Vec Ideal S1x1x2048 .f32) : FVec Ideal S512 .f32 :=
  multiReduction .maximumf [1] S512 (scores x0 x1 x3) 0xFF800000#32 reduces_S512x2048_S512 (.inl rfl) rfl

/-- The exponentials of the scores less their row's largest. -/
def exps (x0 : Vec Ideal S1x512x64 .f32) (x1 : Vec Ideal S1x2048x64 .f32) (x3 : Vec Ideal S1x1x2048 .f32) : FVec Ideal S512x2048 .f32 :=
  exp (subf (scores x0 x1 x3) (broadcastTo S512x2048 (shapeCast S512x1 (rmax x0 x1 x3) shapeCasts_S512_S512x1) broadcasts_S512x1_S512x2048))

/-- Each row's sum of exponentials. -/
def rsum (x0 : Vec Ideal S1x512x64 .f32) (x1 : Vec Ideal S1x2048x64 .f32) (x3 : Vec Ideal S1x1x2048 .f32) : FVec Ideal S512 .f32 :=
  multiReduction .add [1] S512 (exps x0 x1 x3) 0x00000000#32 reduces_S512x2048_S512 (.inl rfl) rfl

/-- The softmax weights. -/
def probs (x0 : Vec Ideal S1x512x64 .f32) (x1 : Vec Ideal S1x2048x64 .f32) (x3 : Vec Ideal S1x1x2048 .f32) : FVec Ideal S512x2048 .f32 :=
  divf (exps x0 x1 x3) (broadcastTo S512x2048 (shapeCast S512x1 (rsum x0 x1 x3) shapeCasts_S512_S512x1) broadcasts_S512x1_S512x2048)

/-- The body's stored value is the weights against the values, with the block's leading unit axis put back. -/
theorem pay_eq (x0 : Vec Ideal S1x512x64 .f32) (x1 x2 : Vec Ideal S1x2048x64 .f32) (x3 : Vec Ideal S1x1x2048 .f32) :
    k0_pay1 (F := Ideal) x0 x1 x2 x3
      = shapeCast S1x512x64 (matmul DPV none (truncf .bf16 (probs x0 x1 x3) bitsLt_bf16_f32) (kv x2) (constant S512x64 .f32 0x00000000#32))
          shapeCasts_S512x64_S1x512x64 := rfl

/-! ## Each stage at an index -/

section
variable (x0 : Vec Ideal S1x512x64 .f32) (x1 x2 : Vec Ideal S1x2048x64 .f32) (x3 : Vec Ideal S1x1x2048 .f32)

theorem qs_apply (t : Fin 512) (j : Fin 64) :
    qs x0 (ix2 t j) = x0 (ix3 (0 : Fin 1) t j) * Ideal.ofBits .f32 0x3E000000#32 :=
  congrArg (fun z : EReal => z * Ideal.ofBits .f32 0x3E000000#32)
    (shapeCast_1ab_ab_apply x0 shapeCasts_S1x512x64_S512x64 t j)

theorem kv_apply (x : Vec Ideal S1x2048x64 .f32) (s : Fin 2048) (j : Fin 64) : kv x (ix2 s j) = x (ix3 (0 : Fin 1) s j) :=
  shapeCast_1ab_ab_apply x shapeCasts_S1x2048x64_S2048x64 s j

/-- The mask row under query row `t`, at key `s`. -/
theorem mask_apply (t : Fin 512) (s : Fin 2048) :
    broadcastTo S512x2048 (shapeCast S1x2048 (shapeCast S2048 x3 shapeCasts_S1x1x2048_S2048) shapeCasts_S2048_S1x2048) broadcasts_S1x2048_S512x2048 (ix2 t s)
      = x3 (ix3 (0 : Fin 1) (0 : Fin 1) s) :=
  (broadcastTo_1b_ab_apply _ broadcasts_S1x2048_S512x2048 t s).trans
    ((shapeCast_a_1a_apply _ shapeCasts_S2048_S1x2048 (0 : Fin 1) s).trans
      (Cert.LibRowReads.shapeCast_11a_a_apply x3 shapeCasts_S1x1x2048_S2048 s))

/-- The query row, the key rows and the mask row the scores of row `t` are taken from. -/
abbrev qrow (t : Fin 512) : Fin 64 → EReal := fun j => x0 (ix3 (0 : Fin 1) t j)
abbrev krows : Fin 2048 → Fin 64 → EReal := fun s j => x1 (ix3 (0 : Fin 1) s j)
abbrev mrow : Fin 2048 → EReal := fun s => x3 (ix3 (0 : Fin 1) (0 : Fin 1) s)

theorem scores_apply (t : Fin 512) (s : Fin 2048) :
    scores x0 x1 x3 (ix2 t s)
      = Cert.Attn.score (Ideal.ofBits .f32 0x3E000000#32) (qrow x0 t) (krows x1) (mrow x3) s := by
  show matmul DQK none (qs x0) (kv x1) (constant S512x2048 .f32 0x00000000#32) (ix2 t s) + _ = _
  rw [qk_apply, mask_apply]
  unfold Cert.Attn.score
  refine congrArg (· + x3 (ix3 (0 : Fin 1) (0 : Fin 1) s)) (Finset.sum_congr rfl fun j _ => ?_)
  rw [qs_apply, kv_apply]

/-- The scores of query row `t`, as the specification writes them. -/
abbrev srow (t : Fin 512) : Fin 2048 → EReal :=
  Cert.Attn.score (Ideal.ofBits .f32 0x3E000000#32) (qrow x0 t) (krows x1) (mrow x3)

theorem rmax_apply (t : Fin 512) :
    rmax x0 x1 x3 (ix1 t) = Cert.Attn.rowMax (Ideal.ofBits .f32 0xFF800000#32) (srow x0 x1 x3 t) := by
  refine (Cert.LibRowReads.rowMax_apply (scores x0 x1 x3) 0xFF800000#32 reduces_S512x2048_S512 (.inl rfl) rfl t).trans ?_
  unfold Cert.Attn.rowMax
  exact congrArg (fun f => Finset.fold max (Ideal.ofBits .f32 0xFF800000#32) f (Finset.univ : Finset (Fin 2048)))
    (funext fun s => scores_apply x0 x1 x3 t s)

theorem exps_apply (t : Fin 512) (s : Fin 2048) :
    exps x0 x1 x3 (ix2 t s)
      = Ideal.exp (srow x0 x1 x3 t s - Cert.Attn.rowMax (Ideal.ofBits .f32 0xFF800000#32) (srow x0 x1 x3 t)) := by
  show Ideal.exp (scores x0 x1 x3 (ix2 t s)
    - broadcastTo S512x2048 (shapeCast S512x1 (rmax x0 x1 x3) shapeCasts_S512_S512x1) broadcasts_S512x1_S512x2048 (ix2 t s)) = _
  rw [Cert.LibColumnReads.broadcastTo_a1_ab_apply, Cert.LibColumnReads.shapeCast_a_a1_apply, rmax_apply, scores_apply]

theorem rsum_apply (t : Fin 512) :
    rsum x0 x1 x3 (ix1 t)
      = ∑ s : Fin 2048, Ideal.exp (srow x0 x1 x3 t s - Cert.Attn.rowMax (Ideal.ofBits .f32 0xFF800000#32) (srow x0 x1 x3 t)) := by
  refine (Cert.LibRowReads.rowSum_apply (exps x0 x1 x3) 0x00000000#32 reduces_S512x2048_S512 (.inl rfl) rfl t).trans ?_
  exact Finset.sum_congr rfl fun s _ => exps_apply x0 x1 x3 t s

theorem probs_apply (t : Fin 512) (s : Fin 2048) :
    probs x0 x1 x3 (ix2 t s) = Cert.Attn.weight (Ideal.ofBits .f32 0xFF800000#32) (srow x0 x1 x3 t) s := by
  show Ideal.div (exps x0 x1 x3 (ix2 t s))
    (broadcastTo S512x2048 (shapeCast S512x1 (rsum x0 x1 x3) shapeCasts_S512_S512x1) broadcasts_S512x1_S512x2048 (ix2 t s)) = _
  rw [Cert.LibColumnReads.broadcastTo_a1_ab_apply, Cert.LibColumnReads.shapeCast_a_a1_apply, rsum_apply, exps_apply]
  rfl

/-- THE STORED BLOCK at row `t`, feature `e`: the attention entry of query row `t`, the key rows, the mask row and
    column `e` of the value rows. -/
theorem pay_apply (t : Fin 512) (e : Fin 64) :
    k0_pay1 (F := Ideal) x0 x1 x2 x3 (ix3 (0 : Fin 1) t e)
      = Cert.Attn.entry (Ideal.ofBits .f32 0x3E000000#32) (Ideal.ofBits .f32 0xFF800000#32)
          (qrow x0 t) (krows x1) (mrow x3) (fun s : Fin 2048 => x2 (ix3 (0 : Fin 1) s e)) := by
  rw [pay_eq]
  refine (shapeCast_ab_1ab_apply _ shapeCasts_S512x64_S1x512x64 (0 : Fin 1) t e).trans ?_
  rw [pv_apply]
  unfold Cert.Attn.entry
  refine Finset.sum_congr rfl fun s _ => ?_
  rw [kv_apply]
  exact congrArg (· * x2 (ix3 (0 : Fin 1) s e)) (probs_apply x0 x1 x3 t s)

end

end Cert.KernelRow

end
-- ==== Proof.HeadsSpec.lean ====
/-
  The attention output with batch and head flattened into one axis of 64 = 4 × 16 heads: the form in which the kernel's
  output array [64, 2048, 64] is written, before it is cast back to [4, 16, 2048, 64].

  Head `g` belongs to batch `g / 16` and uses that batch's mask row. `headAt` is the entry at head `g`, query row `r`,
  feature `e`; `heads` is the whole array.
-/
import proofs.«163491_j20564303413307_2_alg».proof.Proof.AttnSpec

noncomputable section

namespace Cert.Attn

open Idealize.ShloMosaic Idealize.ShloMosaic.ValueIdx

/-- Queries, keys, values and outputs with the heads flattened, and the mask with its two unit axes merged. -/
abbrev QKV3 : Shape := ⟨3, ![64, 2048, 64]⟩
abbrev Msk3 : Shape := ⟨3, ![4, 1, 2048]⟩

/-- The output of head `g`, query row `r`, feature `e`. -/
def headAt (Q3 K3 V3 : QKV3.Idx → EReal) (M3 : Msk3.Idx → EReal) (g : Fin 64) (r : Fin 2048) (e : Fin 64) : EReal :=
  entry (Ideal.ofBits .f32 0x3E000000#32) (Ideal.ofBits .f32 0xFF800000#32)
    (fun j : Fin 64 => Q3 (ix3 g r j)) (fun (s : Fin 2048) (j : Fin 64) => K3 (ix3 g s j))
    (fun s : Fin 2048 => M3 (ix3 (⟨g.val / 16, by have := g.isLt; omega⟩ : Fin 4) (0 : Fin 1) s)) (fun s : Fin 2048 => V3 (ix3 g s e))

/-- The whole output array, heads flattened. -/
def heads (Q3 K3 V3 : QKV3.Idx → EReal) (M3 : Msk3.Idx → EReal) : QKV3.Idx → EReal :=
  fun i => headAt Q3 K3 V3 M3 (i 0) (i 1) (i 2)

theorem heads_apply (Q3 K3 V3 : QKV3.Idx → EReal) (M3 : Msk3.Idx → EReal) (g : Fin 64) (r : Fin 2048) (e : Fin 64) :
    heads Q3 K3 V3 M3 (ix3 g r e) = headAt Q3 K3 V3 M3 g r e := rfl

/-- An entry depends only on the rows and columns it is given. -/
theorem entry_congr {n d : ℕ} (c lo : EReal) {q q' : Fin d → EReal} {k k' : Fin n → Fin d → EReal} {msk msk' v v' : Fin n → EReal}
    (hq : q = q') (hk : k = k') (hm : msk = msk') (hv : v = v') : entry c lo q k msk v = entry c lo q' k' msk' v' := by
  subst hq hk hm hv; rfl

end Cert.Attn

end
-- ==== Proof.KernelArray.lean ====
/-
  The kernel's output array after the run, as one function of the arrays the region reads.

  The grid has 256 = 64 × 4 points: point `t` is head `t / 4`, query tile `t % 4`. At point `t` the body is given rows
  `512 (t % 4) … 512 (t % 4) + 511` of head `t / 4`'s queries, all of that head's key rows and value rows, and the mask
  row of batch `(t / 4) / 16`, and what it stores is written back to rows `512 (t % 4) …` of head `t / 4` of the output.
  By the body's value at an index (the attention entry of the loaded blocks) the block written back at `t` is block `t`
  of `Attn.heads` of the four arrays as the region finds them; the 256 blocks tile the [64, 2048, 64] output, row `r` of
  head `g` lying in the block of point `4 g + r / 512`; so the output array ends as `Attn.heads` of those arrays.
-/
import proofs.«163491_j20564303413307_2_alg».proof.Proof.Gen.KernelIdeal.Frame
import proofs.«163491_j20564303413307_2_alg».proof.Proof.KernelRow
import proofs.«163491_j20564303413307_2_alg».proof.Proof.HeadsSpec
import Idealize.ShloMosaic.Lib.Pipeline.Value

noncomputable section

namespace Cert.KernelArray

open Cert.KernelIdeal Cert.KernelIdeal.Gen Idealize.ShloMosaic Idealize.ShloMosaic.TcCoe Idealize.SL.Sem Idealize.ShloMosaic.ValueIdx
open Idealize.ShloMosaic.Pipeline (Dat)
open Cert.Attn (heads headAt heads_apply entry_congr)

variable (m : (ℓ : Loc nD τ sig) → Buf (Elt Ideal) ℓ) (ρ : Dev nD → PrngReg)

/-- The body's accesses start at the origin of their staging buffers. -/
theorem hz3 : (![0, 0, 0] : Fin 3 → Nat) = fun _ => 0 := funext fun a => by fin_cases a <;> rfl

/-- The printed index maps over the 256 points: the query window moves with the output window; the key, value and
    mask windows follow the output's head (the mask its batch, the head divided by 16); the output's block is
    (t / 4, t % 4, 0). -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) / 16 ∧ win0_3.index t (1 : Fin 3) = 0 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

/-! ## The input windows' blocks as pieces of their arrays -/

/-- An entry of the query window's block at point `t` is the entry of the queries at block index × block size plus the
    coordinate inside the block, on each axis. -/
theorem iblk0_apply (c : Dev nD) (t : Fin cfg0.N) (x : S1x512x64.Idx) (k : S64x2048x64.Idx)
    (hk0 : (k 0).val = win0_0.index t (0 : Fin 3) * 1 + (x 0).val) (hk1 : (k 1).val = win0_0.index t (1 : Fin 3) * 512 + (x 1).val)
    (hk2 : (k 2).val = win0_0.index t (2 : Fin 3) * 64 + (x 2).val) :
    (iblk m c 0 t : Vec Ideal S1x512x64 .f32) x = (V m c main_v0 : S64x2048x64.Idx → Elt Ideal .f32) k := by
  unfold iblk
  rw [View.read_apply]
  show V m c main_v0 _ = V m c main_v0 _
  refine congrArg (V m c main_v0 : S64x2048x64.Idx → Elt Ideal .f32) (funext fun a => Fin.ext ?_)
  match a with
  | ⟨0, _⟩ => show win0_0.index t (0 : Fin 3) * 1 + 1 * (x 0).val = (k 0).val; omega
  | ⟨1, _⟩ => show win0_0.index t (1 : Fin 3) * 512 + 1 * (x 1).val = (k 1).val; omega
  | ⟨2, _⟩ => show win0_0.index t (2 : Fin 3) * 64 + 1 * (x 2).val = (k 2).val; omega

/-- The same for the key window, -/
theorem iblk1_apply (c : Dev nD) (t : Fin cfg0.N) (x : S1x2048x64.Idx) (k : S64x2048x64.Idx)
    (hk0 : (k 0).val = win0_1.index t (0 : Fin 3) * 1 + (x 0).val) (hk1 : (k 1).val = win0_1.index t (1 : Fin 3) * 2048 + (x 1).val)
    (hk2 : (k 2).val = win0_1.index t (2 : Fin 3) * 64 + (x 2).val) :
    (iblk m c 1 t : Vec Ideal S1x2048x64 .f32) x = (V m c main_v1 : S64x2048x64.Idx → Elt Ideal .f32) k := by
  unfold iblk
  rw [View.read_apply]
  show V m c main_v1 _ = V m c main_v1 _
  refine congrArg (V m c main_v1 : S64x2048x64.Idx → Elt Ideal .f32) (funext fun a => Fin.ext ?_)
  match a with
  | ⟨0, _⟩ => show win0_1.index t (0 : Fin 3) * 1 + 1 * (x 0).val = (k 0).val; omega
  | ⟨1, _⟩ => show win0_1.index t (1 : Fin 3) * 2048 + 1 * (x 1).val = (k 1).val; omega
  | ⟨2, _⟩ => show win0_1.index t (2 : Fin 3) * 64 + 1 * (x 2).val = (k 2).val; omega

/-- the value window, -/
theorem iblk2_apply (c : Dev nD) (t : Fin cfg0.N) (x : S1x2048x64.Idx) (k : S64x2048x64.Idx)
    (hk0 : (k 0).val = win0_2.index t (0 : Fin 3) * 1 + (x 0).val) (hk1 : (k 1).val = win0_2.index t (1 : Fin 3) * 2048 + (x 1).val)
    (hk2 : (k 2).val = win0_2.index t (2 : Fin 3) * 64 + (x 2).val) :
    (iblk m c 2 t : Vec Ideal S1x2048x64 .f32) x = (V m c main_v2 : S64x2048x64.Idx → Elt Ideal .f32) k := by
  unfold iblk
  rw [View.read_apply]
  show V m c main_v2 _ = V m c main_v2 _
  refine congrArg (V m c main_v2 : S64x2048x64.Idx → Elt Ideal .f32) (funext fun a => Fin.ext ?_)
  match a with
  | ⟨0, _⟩ => show win0_2.index t (0 : Fin 3) * 1 + 1 * (x 0).val = (k 0).val; omega
  | ⟨1, _⟩ => show win0_2.index t (1 : Fin 3) * 2048 + 1 * (x 1).val = (k 1).val; omega
  | ⟨2, _⟩ => show win0_2.index t (2 : Fin 3) * 64 + 1 * (x 2).val = (k 2).val; omega

/-- and the mask window. -/
theorem iblk3_apply (c : Dev nD) (t : Fin cfg0.N) (x : S1x1x2048.Idx) (k : S4x1x2048.Idx)
    (hk0 : (k 0).val = win0_3.index t (0 : Fin 3) * 1 + (x 0).val) (hk1 : (k 1).val = win0_3.index t (1 : Fin 3) * 1 + (x 1).val)
    (hk2 : (k 2).val = win0_3.index t (2 : Fin 3) * 2048 + (x 2).val) :
    (iblk m c 3 t : Vec Ideal S1x1x2048 .f32) x = (V m c main_v3 : S4x1x2048.Idx → Elt Ideal .f32) k := by
  unfold iblk
  rw [View.read_apply]
  show V m c main_v3 _ = V m c main_v3 _
  refine congrArg (V m c main_v3 : S4x1x2048.Idx → Elt Ideal .f32) (funext fun a => Fin.ext ?_)
  match a with
  | ⟨0, _⟩ => show win0_3.index t (0 : Fin 3) * 1 + 1 * (x 0).val = (k 0).val; omega
  | ⟨1, _⟩ => show win0_3.index t (1 : Fin 3) * 1 + 1 * (x 1).val = (k 1).val; omega
  | ⟨2, _⟩ => show win0_3.index t (2 : Fin 3) * 2048 + 1 * (x 2).val = (k 2).val; omega

/-! ## One point's stored block as a block of the whole output -/

/-- For ANY four blocks that are the rows of head `g` the body needs (query rows `512 q …` and all key, value and mask
    rows), the body's stored block at `y` is the output of head `g` at row `512 q + y 1`, feature `y 2`. -/
theorem block_heads (Q3 K3 V3 : S64x2048x64.Idx → Elt Ideal .f32) (M3 : S4x1x2048.Idx → Elt Ideal .f32)
    (x0 : Vec Ideal S1x512x64 .f32) (x1 x2 : Vec Ideal S1x2048x64 .f32) (x3 : Vec Ideal S1x1x2048 .f32)
    (g : Fin 64) (q : Fin 4)
    (h0 : ∀ (r : Fin 512) (j : Fin 64), x0 (ix3 (0 : Fin 1) r j) = Q3 (ix3 g (⟨q.val * 512 + r.val, by have := q.isLt; have := r.isLt; omega⟩ : Fin 2048) j))
    (h1 : ∀ (s : Fin 2048) (j : Fin 64), x1 (ix3 (0 : Fin 1) s j) = K3 (ix3 g s j))
    (h2 : ∀ (s : Fin 2048) (j : Fin 64), x2 (ix3 (0 : Fin 1) s j) = V3 (ix3 g s j))
    (h3 : ∀ s : Fin 2048, x3 (ix3 (0 : Fin 1) (0 : Fin 1) s) = M3 (ix3 (⟨g.val / 16, by have := g.isLt; omega⟩ : Fin 4) (0 : Fin 1) s))
    (y : S1x512x64.Idx) (i : S64x2048x64.Idx)
    (hi0 : (i 0).val = g.val) (hi1 : (i 1).val = q.val * 512 + (y 1).val) (hi2 : (i 2).val = (y 2).val) :
    k0_pay1 (F := Ideal) x0 x1 x2 x3 y = heads Q3 K3 V3 M3 i := by
  obtain ⟨u, r, e, rfl⟩ : ∃ (u : Fin 1) (r : Fin 512) (e : Fin 64), y = ix3 u r e := ⟨y 0, y 1, y 2, eq_ix3 y⟩
  obtain rfl : u = 0 := Subsingleton.elim _ _
  have hi : i = ix3 g (⟨q.val * 512 + r.val, by have := q.isLt; have := r.isLt; omega⟩ : Fin 2048) e := funext fun a => Fin.ext (by
    match a with
    | ⟨0, _⟩ => exact hi0
    | ⟨1, _⟩ => exact hi1
    | ⟨2, _⟩ => exact hi2)
  rw [hi, heads_apply, Cert.KernelRow.pay_apply]
  unfold headAt
  exact entry_congr _ _ (funext fun j => h0 r j) (funext fun s => funext fun j => h1 s j) (funext fun s => h3 s) (funext fun s => h2 s e)

/-- WHAT POINT `t` WRITES BACK is block `t` of `Attn.heads` of the arrays as the region finds them. -/
theorem flushed_eq (c : Dev nD) (t : Fin cfg0.N) :
    (dats m 0 c).flushed 4 t = ((cfg0.win 4).blk t).view.read (Elt Ideal)
      (heads (V m c main_v0) (V m c main_v1) (V m c main_v2) (V m c main_v3)) := by
  show (cfg0.win 4).cut (grid0.coords t) ((dats m 0 c).after 4 t) = _
  rw [after0_4]
  unfold out0_4
  rw [View.canon_unit_zero hz3]
  simp only [View.ld_unit_zero (S := S1x512x64) hz3, View.ld_unit_zero (S := S1x2048x64) hz3, View.ld_unit_zero (S := S1x1x2048) hz3]
  obtain ⟨e00, e01, e02, e10, e11, e12, e20, e21, e22, e30, e31, e32, e40, e41, e42⟩ := idx_facts t
  have hN : cfg0.N = 256 := N_0
  have ht := t.isLt
  funext y
  have hy0 : (y 0).val < 1 := (y 0).isLt
  have hy1 : (y 1).val < 512 := (y 1).isLt
  have hy2 : (y 2).val < 64 := (y 2).isLt
  show k0_pay1 (F := Ideal) (iblk m c 0 t) (iblk m c 1 t) (iblk m c 2 t) (iblk m c 3 t) y
    = heads (V m c main_v0) (V m c main_v1) (V m c main_v2) (V m c main_v3) (((cfg0.win 4).blk t).view.emb y)
  refine block_heads _ _ _ _ (iblk m c 0 t) (iblk m c 1 t) (iblk m c 2 t) (iblk m c 3 t)
    (⟨t.val / 4, by omega⟩ : Fin 64) (⟨t.val % 4, by omega⟩ : Fin 4) ?_ ?_ ?_ ?_ y _ ?_ ?_ ?_
  · intro r j
    have hr := r.isLt
    refine iblk0_apply m c t _ _ ?_ ?_ ?_
    · show t.val / 4 = win0_0.index t (0 : Fin 3) * 1 + 0; omega
    · show t.val % 4 * 512 + r.val = win0_0.index t (1 : Fin 3) * 512 + r.val; omega
    · show j.val = win0_0.index t (2 : Fin 3) * 64 + j.val; omega
  · intro s j
    refine iblk1_apply m c t _ _ ?_ ?_ ?_
    · show t.val / 4 = win0_1.index t (0 : Fin 3) * 1 + 0; omega
    · show s.val = win0_1.index t (1 : Fin 3) * 2048 + s.val; omega
    · show j.val = win0_1.index t (2 : Fin 3) * 64 + j.val; omega
  · intro s j
    refine iblk2_apply m c t _ _ ?_ ?_ ?_
    · show t.val / 4 = win0_2.index t (0 : Fin 3) * 1 + 0; omega
    · show s.val = win0_2.index t (1 : Fin 3) * 2048 + s.val; omega
    · show j.val = win0_2.index t (2 : Fin 3) * 64 + j.val; omega
  · intro s
    refine iblk3_apply m c t _ _ ?_ ?_ ?_
    · show t.val / 4 / 16 = win0_3.index t (0 : Fin 3) * 1 + 0; omega
    · show 0 = win0_3.index t (1 : Fin 3) * 1 + 0; omega
    · show s.val = win0_3.index t (2 : Fin 3) * 2048 + s.val; omega
  · show win0_4.index t (0 : Fin 3) * 1 + 1 * (y 0).val = t.val / 4; omega
  · show win0_4.index t (1 : Fin 3) * 512 + 1 * (y 1).val = t.val % 4 * 512 + (y 1).val; omega
  · show win0_4.index t (2 : Fin 3) * 64 + 1 * (y 2).val = (y 2).val; omega

/-! ## The output array after the run -/

/-- An index of the output is in point `t`'s block iff each coordinate is in the block's range on its axis. -/
theorem mem_blk (t : Fin cfg0.N) (i : S64x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v4).slice (win0_4.rect t)).set ↔ _
  rw [View.set_slice_whole, Rect.mem_set_unit]
  exact Iff.rfl

/-- Every index of the output is in some point's block: row `r` of head `g` in the block of point `4 g + r / 512`. -/
theorem cover (i : S64x2048x64.Idx) : ∃ t : Fin cfg0.N, (cfg0.win 4).flush t = true ∧ i ∈ ((cfg0.win 4).blk t).view.set := by
  have hN : cfg0.N = 256 := N_0
  have h0 : (i 0).val < 64 := (i 0).isLt
  have h1 : (i 1).val < 2048 := (i 1).isLt
  have h2 : (i 2).val < 64 := (i 2).isLt
  obtain ⟨t, tv⟩ : ∃ t : Fin cfg0.N, t.val = (i 0).val * 4 + (i 1).val / 512 := ⟨⟨(i 0).val * 4 + (i 1).val / 512, by omega⟩, rfl⟩
  refine ⟨t, flush0_4 t, ?_⟩
  obtain ⟨-, -, -, -, -, -, -, -, -, -, -, -, e40, e41, e42⟩ := idx_facts t
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE OUTPUT ARRAY after the run. -/
theorem final (c : Dev nD) :
    (dats m 0 c).arrAt 4 cfg0.N = heads (V m c main_v0) (V m c main_v1) (V m c main_v2) (V m c main_v3) :=
  (dats m 0 c).arrAt_eq_of_cover 4 _ (fun t _ => flushed_eq m c t) cover

end Cert.KernelArray
end
-- ==== Proof.HostSides.lean ====
/-
  The host operations around the region, read as casts.

  Before the region the program casts the queries, keys and values from [4, 16, 2048, 64] to [64, 2048, 64] and the
  mask from [4, 1, 1, 2048] to [4, 1, 2048]: the four arrays the region reads are those casts of the arguments. After
  the region it casts the region's output array from [64, 2048, 64] back to [4, 16, 2048, 64]: the program's result is
  that cast of the output array as the region leaves it.
-/
import proofs.«163491_j20564303413307_2_alg».proof.Proof.Gen.KernelIdeal.Frame
import Idealize.ShloMosaic.Lib.Pipeline.Value
import Idealize.ShloMosaic.Lib.StableHlo.Run
import Idealize.ShloMosaic.PureOps.Ideal

noncomputable section

namespace Cert.HostSides

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The queries as the region finds them: the argument cast to [64, 2048, 64]. -/
theorem V_v0 (c : Dev nD) :
    (V m c main_v0 : S64x2048x64.Idx → Elt Ideal .f32)
      = shapeCast S64x2048x64 (m ((c : Thread nD τ).loc main_arg0) : S4x16x2048x64.Idx → Elt Ideal .f32) shapeCasts_S4x16x2048x64_S64x2048x64 := by
  show StableHlo.after hostOps0 (fun b => m (c, b)) (Proc.devRef .tc main_v0) = _
  after_results
  rfl

/-- The keys, -/
theorem V_v1 (c : Dev nD) :
    (V m c main_v1 : S64x2048x64.Idx → Elt Ideal .f32)
      = shapeCast S64x2048x64 (m ((c : Thread nD τ).loc main_arg1) : S4x16x2048x64.Idx → Elt Ideal .f32) shapeCasts_S4x16x2048x64_S64x2048x64 := by
  show StableHlo.after hostOps0 (fun b => m (c, b)) (Proc.devRef .tc main_v1) = _
  after_results
  rfl

/-- the values, -/
theorem V_v2 (c : Dev nD) :
    (V m c main_v2 : S64x2048x64.Idx → Elt Ideal .f32)
      = shapeCast S64x2048x64 (m ((c : Thread nD τ).loc main_arg2) : S4x16x2048x64.Idx → Elt Ideal .f32) shapeCasts_S4x16x2048x64_S64x2048x64 := by
  show StableHlo.after hostOps0 (fun b => m (c, b)) (Proc.devRef .tc main_v2) = _
  after_results
  rfl

/-- and the mask, cast to [4, 1, 2048]. -/
theorem V_v3 (c : Dev nD) :
    (V m c main_v3 : S4x1x2048.Idx → Elt Ideal .f32)
      = shapeCast S4x1x2048 (m ((c : Thread nD τ).loc main_arg3) : S4x1x1x2048.Idx → Elt Ideal .f32) shapeCasts_S4x1x1x2048_S4x1x2048 := by
  show StableHlo.after hostOps0 (fun b => m (c, b)) (Proc.devRef .tc main_v3) = _
  after_results
  rfl

/-- The program's result: the region's output array, as the region leaves it, cast back to [4, 16, 2048, 64]. -/
theorem tail_v5 (c : Dev nD) :
    (Pipeline.afterTail₀ cfgs (dats m) 0 (V0 m) [hostOps1] c main_v5 : S4x16x2048x64.Idx → Elt Ideal .f32)
      = shapeCast S4x16x2048x64 ((dats m 0 c).arrAt 4 cfg0.N : S64x2048x64.Idx → Elt Ideal .f32) shapeCasts_S64x2048x64_S4x16x2048x64 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = (dats m 0 c).arrAt 4 cfg0.N :=
    Pipeline.withArrays_arr spec0 launch0.win.arr_inj c _ _ 4
  rw [hw]
  rfl

end Cert.HostSides

end
-- ==== Proof.HeadsReshape.lean ====
/-
  The flattened-heads output cast back to [4, 16, 2048, 64] is the attention output of the original arrays.

  A cast between shapes keeps the row-major position, so position (b, h, t, e) of [4, 16, 2048, 64] is position
  (16 b + h, t, e) of [64, 2048, 64], and position (b, 0, 0, s) of the mask [4, 1, 1, 2048] is position (b, 0, s) of
  [4, 1, 2048]. Head `16 b + h` belongs to batch `(16 b + h) / 16 = b`. So `Attn.heads` of the casts of the queries,
  keys, values and mask, cast back, is `Attn.attn` of them, entry by entry: the two sides are the same `Attn.entry` of
  the same rows and columns.
-/
import proofs.«163491_j20564303413307_2_alg».proof.Proof.HeadsSpec
import Idealize.ShloMosaic.Lib.ValueIdx
import Idealize.ShloMosaic.Lib.Pipeline.Value

noncomputable section

namespace Cert.Attn

open Idealize.ShloMosaic Idealize.ShloMosaic.ValueIdx

/-- Head `16 b + h` of the flattened arrays is head `h` of batch `b`. -/
theorem cast_head (X : QKV.Idx → EReal) (hq : QKV.ShapeCasts QKV3) (b : Fin 4) (h : Fin 16) (t : Fin 2048) (e : Fin 64)
    (g : Fin 64) (hg : g.val = b.val * 16 + h.val) :
    shapeCast QKV3 X hq (ix3 g t e) = X (ix4 b h t e) :=
  shapeCast_apply X hq (ix3 g t e) (ix4 b h t e) (by
    rw [Shape.rowMajor_val_four, Shape.rowMajor_val_three]
    show ((b.val * 16 + h.val) * 2048 + t.val) * 64 + e.val = (g.val * 2048 + t.val) * 64 + e.val
    rw [hg])

/-- Batch `b`'s mask row in either spelling of the mask's shape. -/
theorem cast_mask (M : Msk.Idx → EReal) (hm : Msk.ShapeCasts Msk3) (b : Fin 4) (s : Fin 2048) :
    shapeCast Msk3 M hm (ix3 b (0 : Fin 1) s) = M (ix4 b (0 : Fin 1) (0 : Fin 1) s) :=
  shapeCast_apply M hm (ix3 b (0 : Fin 1) s) (ix4 b (0 : Fin 1) (0 : Fin 1) s) (by
    rw [Shape.rowMajor_val_four, Shape.rowMajor_val_three]
    show ((b.val * 1 + 0) * 1 + 0) * 2048 + s.val = (b.val * 1 + 0) * 2048 + s.val
    omega)

/-- `Attn.heads` of the four arrays cast to the flattened shapes, cast back to [4, 16, 2048, 64], is `Attn.attn` of the
    arrays: at (b, h, t, e) both are the entry of query row (b, h, t), the keys and values of head (b, h) and batch `b`'s
    mask row. -/
theorem heads_cast (Q K V : QKV.Idx → EReal) (M : Msk.Idx → EReal)
    (hq : QKV.ShapeCasts QKV3) (hm : Msk.ShapeCasts Msk3) (ho : QKV3.ShapeCasts QKV) :
    shapeCast QKV (heads (shapeCast QKV3 Q hq) (shapeCast QKV3 K hq) (shapeCast QKV3 V hq) (shapeCast Msk3 M hm)) ho
      = attn Q K V M := by
  funext i
  obtain ⟨b, h, t, e, rfl⟩ : ∃ (b : Fin 4) (h : Fin 16) (t : Fin 2048) (e : Fin 64), i = ix4 b h t e :=
    ⟨i 0, i 1, i 2, i 3, eq_ix4 i⟩
  have hb := b.isLt
  have hh := h.isLt
  obtain ⟨g, hg⟩ : ∃ g : Fin 64, g.val = b.val * 16 + h.val := ⟨⟨b.val * 16 + h.val, by omega⟩, rfl⟩
  have hgb : (⟨g.val / 16, by have := g.isLt; omega⟩ : Fin 4) = b := Fin.ext (by show g.val / 16 = b.val; omega)
  rw [attn_apply]
  refine (shapeCast_apply _ ho (ix4 b h t e) (ix3 g t e) (by
    rw [Shape.rowMajor_val_three, Shape.rowMajor_val_four]
    show (g.val * 2048 + t.val) * 64 + e.val = ((b.val * 16 + h.val) * 2048 + t.val) * 64 + e.val
    rw [hg])).trans ?_
  rw [heads_apply]
  unfold headAt outAt
  rw [hgb]
  exact entry_congr _ _ (funext fun j => cast_head Q hq b h t j g hg) (funext fun s => funext fun j => cast_head K hq b h s j g hg)
    (funext fun s => cast_mask M hm b s) (funext fun s => cast_head V hq b h s e g hg)

end Cert.Attn

end
-- ==== Proof.KernelValue.lean ====
/-
  The kernel program's run with its result named: the attention output of its four arguments.

  The region's output array ends as `Attn.heads` of the arrays the region reads; those are the casts of the arguments
  to the flattened shapes; the program's result is the cast back of the output array; and `Attn.heads` of the casts,
  cast back, is `Attn.attn` of the arguments. The arguments themselves end unchanged.
-/
import proofs.«163491_j20564303413307_2_alg».proof.Proof.KernelArray
import proofs.«163491_j20564303413307_2_alg».proof.Proof.HostSides
import proofs.«163491_j20564303413307_2_alg».proof.Proof.HeadsReshape

noncomputable section

namespace Cert.KernelValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The program's result array is the attention output of the arguments as launched. -/
theorem result_eq (c : Dev nD) :
    (Pipeline.afterTail₀ cfgs (dats m) 0 (V0 m) [hostOps1] c main_v5 : S4x16x2048x64.Idx → Elt Ideal .f32)
      = Cert.Attn.attn (m ((c : Thread nD τ).loc main_arg0)) (m ((c : Thread nD τ).loc main_arg1))
          (m ((c : Thread nD τ).loc main_arg2)) (m ((c : Thread nD τ).loc main_arg3)) := by
  rw [Cert.HostSides.tail_v5, Cert.KernelArray.final, Cert.HostSides.V_v0, Cert.HostSides.V_v1, Cert.HostSides.V_v2, Cert.HostSides.V_v3]
  exact Cert.Attn.heads_cast _ _ _ _ shapeCasts_S4x16x2048x64_S64x2048x64 shapeCasts_S4x1x1x2048_S4x1x2048 shapeCasts_S64x2048x64_S4x16x2048x64

/-- Every weakly fair execution of the kernel program terminates without a fault, with the result array at the
    attention output of the arguments and the arguments unchanged. -/
theorem run : θ_run defs (onTc (τ := τ) (main (F := Ideal))) ⟨m, fun _ => 0, ρ⟩ fun r => ∀ c : Dev nD,
      r.2.mem ((c.tc : Thread nD τ).loc main_v5)
        = Cert.Attn.attn (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelValue

end
-- ==== Proof.RefSide.lean ====
/-
  The reference program read as softmax attention.

  The reference computes, one host operation at a time, the scores (Q·c)·Kᵀ + mask, their row maxima (a fold of `max`
  from the word of -∞, then once more the maximum with that word), the exponentials of the scores less the row
  maximum, the row sums (from the zero word), the quotients, and the product of the quotients with V. Read at the
  output index (b, h, t, e) each stage is the corresponding term of `Cert.Attn`: the score, the row maximum
  (`max lo (fold max lo f) = fold max lo f`, as `lo ≤ fold max lo f`), the weight, and the entry.
-/
import proofs.«163491_j20564303413307_2_alg».proof.Proof.Gen.ReferenceIdeal.Read
import proofs.«163491_j20564303413307_2_alg».proof.Proof.AttnSpec
import Idealize.ShloMosaic.Lib.ValueIdx
import Idealize.ShloMosaic.PureOps.Ideal.Laws
import Idealize.ShloMosaic.PureOps.Reduce

noncomputable section

namespace Cert.RefSide

open Idealize.ShloMosaic Idealize.ShloMosaic.ValueIdx
open Cert.ReferenceIdeal Cert.ReferenceIdeal.Gen Cert.ReferenceIdeal.Read

/-! ## The composed index functions at literal coordinates -/

theorem lidx2_ix (b : Fin 4) (h : Fin 16) (t s : Fin 2048) (k : Fin 64) :
    lidx_main_v2 (ix4 b h t s) k = ix4 b h t k :=
  funext fun a => Fin.ext (by match a with | ⟨0, _⟩ => rfl | ⟨1, _⟩ => rfl | ⟨2, _⟩ => rfl | ⟨3, _⟩ => rfl)

theorem ridx2_ix (b : Fin 4) (h : Fin 16) (t s : Fin 2048) (k : Fin 64) :
    ridx_main_v2 (ix4 b h t s) k = ix4 b h s k :=
  funext fun a => Fin.ext (by match a with | ⟨0, _⟩ => rfl | ⟨1, _⟩ => rfl | ⟨2, _⟩ => rfl | ⟨3, _⟩ => rfl)

theorem idx3_ix (b : Fin 4) (h : Fin 16) (t s : Fin 2048) :
    idx_main_v3 (ix4 b h t s) = ix4 b (0 : Fin 1) (0 : Fin 1) s :=
  funext fun a => Fin.ext (by match a with | ⟨0, _⟩ => rfl | ⟨1, _⟩ => rfl | ⟨2, _⟩ => rfl | ⟨3, _⟩ => rfl)

theorem idx89_ix (b : Fin 4) (h : Fin 16) (t s : Fin 2048) :
    idx_main_v8 (idx_main_v9 (ix4 b h t s)) = ix3 b h t :=
  funext fun a => Fin.ext (by match a with | ⟨0, _⟩ => rfl | ⟨1, _⟩ => rfl | ⟨2, _⟩ => rfl)

theorem idx1314_ix (b : Fin 4) (h : Fin 16) (t s : Fin 2048) :
    idx_main_v13 (idx_main_v14 (ix4 b h t s)) = ix3 b h t :=
  funext fun a => Fin.ext (by match a with | ⟨0, _⟩ => rfl | ⟨1, _⟩ => rfl | ⟨2, _⟩ => rfl)

theorem idx12_ix (b : Fin 4) (h : Fin 16) (t k : Fin 2048) :
    idx_main_v12 (ix3 b h t) k = ix4 b h t k :=
  funext fun a => Fin.ext (by match a with | ⟨0, _⟩ => rfl | ⟨1, _⟩ => rfl | ⟨2, _⟩ => rfl | ⟨3, _⟩ => rfl)

theorem lidx16_ix (b : Fin 4) (h : Fin 16) (t : Fin 2048) (e : Fin 64) (k : Fin 2048) :
    lidx_main_v16 (ix4 b h t e) k = ix4 b h t k :=
  funext fun a => Fin.ext (by match a with | ⟨0, _⟩ => rfl | ⟨1, _⟩ => rfl | ⟨2, _⟩ => rfl | ⟨3, _⟩ => rfl)

theorem ridx16_ix (b : Fin 4) (h : Fin 16) (t : Fin 2048) (e : Fin 64) (k : Fin 2048) :
    ridx_main_v16 (ix4 b h t e) k = ix4 b h k e :=
  funext fun a => Fin.ext (by match a with | ⟨0, _⟩ => rfl | ⟨1, _⟩ => rfl | ⟨2, _⟩ => rfl | ⟨3, _⟩ => rfl)

/-- The index over the row `(b, h, t)` with key coordinate `k` inserted on the reduced axis. -/
theorem lift_ix (hR : S4x16x2048x2048.Reduces [3] S4x16x2048) (b : Fin 4) (h : Fin 16) (t k : Fin 2048) :
    hR.lift (ix3 b h t) k = ix4 b h t k :=
  funext fun a => Fin.ext (by match a with | ⟨0, _⟩ => rfl | ⟨1, _⟩ => rfl | ⟨2, _⟩ => rfl | ⟨3, _⟩ => rfl)

/-! ## The stages at literal coordinates -/

/-- The scaled query entry: the query entry times the word of 1/8. -/
theorem v1_at (x0 : (⟨S4x16x2048x64, .f32⟩ : BufTy).Contents (Elt Ideal)) (i : S4x16x2048x64.Idx) :
    val_main_v1 (F := Ideal) x0 i = x0 i * Ideal.ofBits .f32 0x3E000000#32 := by
  rw [val_main_v1_apply, val_main_v0_apply, val_main_cst_apply]
  rfl

/-- The score of key `s` against query row `t`. -/
theorem v4_at (x0 x1 : (⟨S4x16x2048x64, .f32⟩ : BufTy).Contents (Elt Ideal))
    (x3 : (⟨S4x1x1x2048, .f32⟩ : BufTy).Contents (Elt Ideal)) (b : Fin 4) (h : Fin 16) (t s : Fin 2048) :
    val_main_v4 (F := Ideal) x0 x1 x3 (ix4 b h t s)
      = Cert.Attn.score (Ideal.ofBits .f32 0x3E000000#32) (fun j : Fin 64 => x0 (ix4 b h t j))
          (fun (s : Fin 2048) (j : Fin 64) => x1 (ix4 b h s j)) (fun s : Fin 2048 => x3 (ix4 b (0 : Fin 1) (0 : Fin 1) s)) s := by
  rw [val_main_v4_apply, val_main_v2_apply, val_main_v3_apply, idx3_ix]
  unfold Cert.Attn.score
  refine congrArg (· + _) (Finset.sum_congr rfl fun k _ => ?_)
  rw [lidx2_ix, ridx2_ix, v1_at]

/-- A maximum-reduce over the key axis of any array of scores, from the word of -∞, read at the row `(b, h, t)`:
    the fold of `max` over the keys. -/
theorem reduce_max_at (y : (⟨S4x16x2048x2048, .f32⟩ : BufTy).Contents (Elt Ideal)) (b : Fin 4) (h : Fin 16) (t : Fin 2048) :
    (Host.reduce (FloatOps.maximumf (F := Ideal) (φ := .f32)) y (val_main_cst_0 (F := Ideal)) reducesTo_S4x16x2048x2048_S4x16x2048_d3 h_S_ :
        (⟨S4x16x2048, .f32⟩ : BufTy).Contents (Elt Ideal)) (ix3 b h t)
      = Cert.Attn.rowMax (Ideal.ofBits .f32 0xFF800000#32) (fun s : Fin 2048 => y (ix4 b h t s)) := by
  have hR : S4x16x2048x2048.Reduces [3] S4x16x2048 := by decide
  refine (Host.reduce_eq_fold_single (FloatOps.maximumf (F := Ideal) (φ := .f32)) y (val_main_cst_0 (F := Ideal))
    reducesTo_S4x16x2048x2048_S4x16x2048_d3 hR h_S_ (ix3 b h t)).trans ?_
  have hf : (y ∘ hR.lift (ix3 b h t)) = fun s : Fin 2048 => y (ix4 b h t s) :=
    funext fun k => congrArg y (lift_ix hR b h t k)
  rw [hf]
  rfl

/-- The scores of the query row `(b, h, t)` against every key, as `Cert.Attn` writes them. -/
abbrev rowScores (x0 x1 : (⟨S4x16x2048x64, .f32⟩ : BufTy).Contents (Elt Ideal))
    (x3 : (⟨S4x1x1x2048, .f32⟩ : BufTy).Contents (Elt Ideal)) (b : Fin 4) (h : Fin 16) (t : Fin 2048) : Fin 2048 → EReal :=
  Cert.Attn.score (Ideal.ofBits .f32 0x3E000000#32) (fun j : Fin 64 => x0 (ix4 b h t j))
    (fun (s : Fin 2048) (j : Fin 64) => x1 (ix4 b h s j)) (fun s : Fin 2048 => x3 (ix4 b (0 : Fin 1) (0 : Fin 1) s))

/-- The reduce of the scores over the keys is the row maximum. -/
theorem v5_at (x0 x1 : (⟨S4x16x2048x64, .f32⟩ : BufTy).Contents (Elt Ideal))
    (x3 : (⟨S4x1x1x2048, .f32⟩ : BufTy).Contents (Elt Ideal)) (b : Fin 4) (h : Fin 16) (t : Fin 2048) :
    val_main_v5 (F := Ideal) x0 x1 x3 (ix3 b h t)
      = Cert.Attn.rowMax (Ideal.ofBits .f32 0xFF800000#32) (rowScores x0 x1 x3 b h t) := by
  unfold val_main_v5
  refine (reduce_max_at (val_main_v4 (F := Ideal) x0 x1 x3) b h t).trans ?_
  exact congrArg (Cert.Attn.rowMax (Ideal.ofBits .f32 0xFF800000#32)) (funext fun s => v4_at x0 x1 x3 b h t s)

/-- The maximum of the word of -∞ with the row maximum is the row maximum: the fold starts from that word, so it is
    at least it. -/
theorem v7_at (x0 x1 : (⟨S4x16x2048x64, .f32⟩ : BufTy).Contents (Elt Ideal))
    (x3 : (⟨S4x1x1x2048, .f32⟩ : BufTy).Contents (Elt Ideal)) (b : Fin 4) (h : Fin 16) (t : Fin 2048) :
    val_main_v7 (F := Ideal) x0 x1 x3 (ix3 b h t)
      = Cert.Attn.rowMax (Ideal.ofBits .f32 0xFF800000#32) (rowScores x0 x1 x3 b h t) := by
  rw [val_main_v7_apply, val_main_v6_apply, val_main_cst_1_apply, v5_at, Ideal.maximumf_def, Ideal.ofBits_def]
  exact max_eq_right ((Finset.le_fold_max _).mpr (Or.inl le_rfl))

/-- The exponential of a score less its row's maximum. -/
theorem v11_at (x0 x1 : (⟨S4x16x2048x64, .f32⟩ : BufTy).Contents (Elt Ideal))
    (x3 : (⟨S4x1x1x2048, .f32⟩ : BufTy).Contents (Elt Ideal)) (b : Fin 4) (h : Fin 16) (t s : Fin 2048) :
    val_main_v11 (F := Ideal) x0 x1 x3 (ix4 b h t s)
      = Ideal.exp (rowScores x0 x1 x3 b h t s
          - Cert.Attn.rowMax (Ideal.ofBits .f32 0xFF800000#32) (rowScores x0 x1 x3 b h t)) := by
  rw [val_main_v11_apply, val_main_v10_apply, val_main_v9_apply, val_main_v8_apply, idx89_ix, v7_at, v4_at]
  rfl

/-- The row's sum of exponentials: the zero word adds nothing. -/
theorem v12_at (x0 x1 : (⟨S4x16x2048x64, .f32⟩ : BufTy).Contents (Elt Ideal))
    (x3 : (⟨S4x1x1x2048, .f32⟩ : BufTy).Contents (Elt Ideal)) (b : Fin 4) (h : Fin 16) (t : Fin 2048) :
    val_main_v12 (F := Ideal) x0 x1 x3 (ix3 b h t)
      = ∑ s' : Fin 2048, Ideal.exp (rowScores x0 x1 x3 b h t s'
          - Cert.Attn.rowMax (Ideal.ofBits .f32 0xFF800000#32) (rowScores x0 x1 x3 b h t)) := by
  rw [val_main_v12_apply, val_main_cst_2_apply, Ideal.ofBits_def, Ideal.ofBits_zero_f32, zero_add]
  exact Finset.sum_congr rfl fun k _ => by rw [idx12_ix, v11_at]

/-- The softmax weight of key `s` in the row `(b, h, t)`. -/
theorem v15_at (x0 x1 : (⟨S4x16x2048x64, .f32⟩ : BufTy).Contents (Elt Ideal))
    (x3 : (⟨S4x1x1x2048, .f32⟩ : BufTy).Contents (Elt Ideal)) (b : Fin 4) (h : Fin 16) (t s : Fin 2048) :
    val_main_v15 (F := Ideal) x0 x1 x3 (ix4 b h t s)
      = Cert.Attn.weight (Ideal.ofBits .f32 0xFF800000#32) (rowScores x0 x1 x3 b h t) s := by
  rw [val_main_v15_apply, val_main_v14_apply, val_main_v13_apply, idx1314_ix, v12_at, v11_at]
  rfl

/-! ## The reference is softmax attention -/

/-- The reference's output array is `Cert.Attn.attn` of its four arguments (queries, keys, values, mask). -/
theorem ref_eq (x0 x1 x2 : (⟨Cert.ReferenceIdeal.S4x16x2048x64, .f32⟩ : BufTy).Contents (Elt Ideal))
    (x3 : (⟨Cert.ReferenceIdeal.S4x1x1x2048, .f32⟩ : BufTy).Contents (Elt Ideal)) :
    Cert.ReferenceIdeal.Read.val_main_v16 (F := Ideal) x0 x1 x2 x3 = Cert.Attn.attn x0 x1 x2 x3 := by
  funext i
  obtain ⟨b, h, t, e, rfl⟩ : ∃ (b : Fin 4) (h : Fin 16) (t : Fin 2048) (e : Fin 64), i = ix4 b h t e :=
    ⟨i 0, i 1, i 2, i 3, eq_ix4 i⟩
  rw [val_main_v16_apply, Cert.Attn.attn_apply]
  unfold Cert.Attn.outAt Cert.Attn.entry
  exact Finset.sum_congr rfl fun k _ => by rw [lidx16_ix, ridx16_ix, v15_at]

end Cert.RefSide

end
-- ==== Proof.lean ====
/-
  The kernel and the reference compute the same softmax attention over the extended reals.

  Inputs: queries, keys and values of shape [4, 16, 2048, 64] and an additive mask of shape [4, 1, 1, 2048]. For batch
  `b`, head `h`, query row `t` and feature `e` both programs produce

      ∑ s, w s * V (b, h, s, e),    w s = exp (sc s - M) / ∑ s', exp (sc s' - M),
      sc s = (∑ j, (Q (b, h, t, j) * 1/8) * K (b, h, s, j)) + mask (b, 0, 0, s),    M = the largest of the sc s

  (`Attn.attn`). The reference does so in one pass over the whole arrays; it takes the row maximum once more against
  -∞, which changes nothing, and starts its row sums from zero. The kernel flattens batch and head into 64 heads and
  works on 256 grid points, head by head and 512 query rows at a time, each point with all 2048 keys and values of its
  head; it rounds to bf16 before its two matrix products, which is the identity at the ideal values, and its products,
  row maxima and row sums are the same finite sums and the same fold of `max` in another grouping, which agree because
  addition and `max` on the extended reals are commutative and associative. No step needs the inputs to be finite.

  The three frames are the generated ones (the reference's is its generated run with the result dropped); the
  idealization rewrote no operation, so the fourth claim is `True`; the fifth puts the kernel's run (`KernelValue.run`)
  beside the reference's run read as the same function (`RefSide.ref_eq`).
-/
import proofs.«163491_j20564303413307_2_alg».proof.Defs
import proofs.«163491_j20564303413307_2_alg».proof.Proof.Gen.Kernel
import proofs.«163491_j20564303413307_2_alg».proof.Proof.Gen.Kernel.Skeleton
import proofs.«163491_j20564303413307_2_alg».proof.Proof.Gen.Kernel.Launch
import proofs.«163491_j20564303413307_2_alg».proof.Proof.Gen.Kernel.Points
import proofs.«163491_j20564303413307_2_alg».proof.Proof.Gen.Kernel.Frame
import proofs.«163491_j20564303413307_2_alg».proof.Proof.Gen.KernelIdeal
import proofs.«163491_j20564303413307_2_alg».proof.Proof.Gen.KernelIdeal.Skeleton
import proofs.«163491_j20564303413307_2_alg».proof.Proof.Gen.KernelIdeal.Launch
import proofs.«163491_j20564303413307_2_alg».proof.Proof.Gen.KernelIdeal.Points
import proofs.«163491_j20564303413307_2_alg».proof.Proof.Gen.KernelIdeal.Frame
import proofs.«163491_j20564303413307_2_alg».proof.Proof.Gen.ReferenceIdeal
import proofs.«163491_j20564303413307_2_alg».proof.Proof.Gen.Pre_finite_inputs
import proofs.«163491_j20564303413307_2_alg».proof.Proof.Gen.ReferenceIdeal.Run
import proofs.«163491_j20564303413307_2_alg».proof.Proof.Gen.ReferenceIdeal.Read
import proofs.«163491_j20564303413307_2_alg».proof.Proof.KernelValue
import proofs.«163491_j20564303413307_2_alg».proof.Proof.RefSide
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the attention output of those arguments:
    the kernel by its run, the reference by its run read as the same function. -/
theorem algebraic : Cert.algebraic_KernelIdeal_ReferenceIdeal := by
  intro m ρ m' ρ' _ hagree
  refine ⟨fun c => Cert.Attn.attn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.RefSide.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
